-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x768 : Shape := ⟨3, ![2, 8192, 768]⟩
abbrev S8192x768 : Shape := ⟨2, ![8192, 768]⟩
abbrev S768 : Shape := ⟨1, ![768]⟩
abbrev S_ : Shape := ⟨0, ![]⟩

class Facts : Prop where
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S2x8192x768 .f32) (main_arg1 : FVec F S8192x768 .f32) (main_arg2 : FVec F S768 .f32) (main_arg3 : FVec F S768 .f32) : IVec S_ 1 :=
  let main_v0 : FVec F S2x8192x768 .f32 := Host.absf main_arg0
  let main_cst : FVec F S_ .f32 := constant S_ .f32 0x7F800000#32
  let main_v1 : FVec F S2x8192x768 .f32 := broadcastInDim S2x8192x768 ![] bcast_S_S2x8192x768 main_cst
  let main_v2 : IVec S2x8192x768 1 := cmpf .olt main_v0 main_v1
  let main_c : IVec S_ 1 := constantI S_ 1 1#1
  let main_v3 : IVec S_ 1 := (fun x v => Host.reduce IntOp.andi x v reducesTo_S2x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S2x8192x768 : Shape := ⟨3, ![2, 8192, 768]⟩
abbrev S8192x768 : Shape := ⟨2, ![8192, 768]⟩
abbrev S768 : Shape := ⟨1, ![768]⟩
abbrev S1x768 : Shape := ⟨2, ![1, 768]⟩
abbrev S2x1024x768 : Shape := ⟨3, ![2, 1024, 768]⟩
abbrev S1024x768 : Shape := ⟨2, ![1024, 768]⟩
abbrev S1x1024x768 : Shape := ⟨3, ![1, 1024, 768]⟩
abbrev S2x1024 : Shape := ⟨2, ![2, 1024]⟩
abbrev S2x1024x1 : Shape := ⟨3, ![2, 1024, 1]⟩
abbrev S1x1x768 : Shape := ⟨3, ![1, 1, 768]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S1x768, .f32⟩
  | .hbm, ⟨5, _⟩ => ⟨S1x768, .f32⟩
  | .hbm, ⟨6, _⟩ => ⟨S2x8192x768, .f32⟩
  | .local _ .vmem, ⟨0, _⟩ => ⟨S2x1024x768, .f32⟩
  | .local _ .vmem, ⟨1, _⟩ => ⟨S2x1024x768, .f32⟩
  | .local _ .vmem, ⟨2, _⟩ => ⟨S1024x768, .f32⟩
  | .local _ .vmem, ⟨3, _⟩ => ⟨S1024x768, .f32⟩
  | .local _ .vmem, ⟨4, _⟩ => ⟨S1x768, .f32⟩
  | .local _ .vmem, ⟨5, _⟩ => ⟨S1x768, .f32⟩
  | .local _ .vmem, ⟨6, _⟩ => ⟨S2x1024x768, .f32⟩
  | .local _ .vmem, ⟨7, _⟩ => ⟨S2x1024x768, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S768_S1x768 : S768.ShapeCasts S1x768
  inb_S2x1024x768_S2x1024x768_0_0_0 : ∀ a, (![0, 0, 0] : Fin 3 → Nat) a + S2x1024x768.size a ≤ S2x1024x768.size a
  h_S2x1024x768 : 0 < S2x1024x768.numel
  inb_S1024x768_S1024x768_0_0 : ∀ a, (![0, 0] : Fin 2 → Nat) a + S1024x768.size a ≤ S1024x768.size a
  h_S1024x768 : 0 < S1024x768.numel
  shapeCasts_S1024x768_S1x1024x768 : S1024x768.ShapeCasts S1x1024x768
  broadcasts_S1x1024x768_S2x1024x768 : S1x1024x768.Broadcasts S2x1024x768
  reduces_S2x1024x768_S2x1024 : S2x1024x768.Reduces [2] S2x1024
  shapeCasts_S2x1024_S2x1024x1 : S2x1024.ShapeCasts S2x1024x1
  broadcasts_S2x1024x1_S2x1024x768 : S2x1024x1.Broadcasts S2x1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  broadcasts_S1x1x768_S2x1024x768 : S1x1x768.Broadcasts S2x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x768.size a ≤ S2x8192x768.size a
  hwx0_0 : ∀ i : grid0.Coords, EltTy.bits .f32 = 32 ∨ (Rect.block (s := S2x8192x768) S2x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x768.size a ≤ S2x8192x768.size a
  hwx0_4 : ∀ i : grid0.Coords, EltTy.bits .f32 = 32 ∨ (Rect.block (s := S2x8192x768) S2x1024x768.size (cc0_transform_4 i) (hinb0_4 i)).WholeWords (EltTy.packing .f32)

variable [Facts₀]

abbrev win0_0 : Pipeline.Window sig grid0 :=
  Pipeline.Window.ofSpec (Memref.whole main_arg0) S2x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x8192x768 : Shape := ⟨3, ![2, 8192, 768]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x768 : Shape := ⟨3, ![1, 8192, 768]⟩
abbrev S2x8192 : Shape := ⟨2, ![2, 8192]⟩
abbrev S2x8192x1 : Shape := ⟨3, ![2, 8192, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S1x8192, .i32⟩
  | .hbm, ⟨6, _⟩ => ⟨S_, .i32⟩
  | .hbm, ⟨7, _⟩ => ⟨S1x8192, .i32⟩
  | .hbm, ⟨8, _⟩ => ⟨S1x8192, .i1⟩
  | .hbm, ⟨9, _⟩ => ⟨S_, .i32⟩
  | .hbm, ⟨10, _⟩ => ⟨S1x8192, .i32⟩
  | .hbm, ⟨11, _⟩ => ⟨S1x8192, .i32⟩
  | .hbm, ⟨12, _⟩ => ⟨S1x8192, .i32⟩
  | .hbm, ⟨13, _⟩ => ⟨S1x8192x1, .i32⟩
  | .hbm, ⟨14, _⟩ => ⟨S1, .i32⟩
  | .hbm, ⟨15, _⟩ => ⟨S_, .i32⟩
  | .hbm, ⟨16, _⟩ => ⟨S1x8192x1, .i32⟩
  | .hbm, ⟨17, _⟩ => ⟨S1x8192x1, .i1⟩
  | .hbm, ⟨18, _⟩ => ⟨S1x1x1, .i32⟩
  | .hbm, ⟨19, _⟩ => ⟨S1x8192x1, .i32⟩
  | .hbm, ⟨20, _⟩ => ⟨S1x8192x1, .i1⟩
  | .hbm, ⟨21, _⟩ => ⟨S1x8192x1, .i1⟩
  | .hbm, ⟨22, _⟩ => ⟨S_, .i1⟩
  | .hbm, ⟨23, _⟩ => ⟨S1x8192, .i1⟩
  | .hbm, ⟨24, _⟩ => ⟨S1x8192x768, .f32⟩
  | .hbm, ⟨25, _⟩ => ⟨S1x8192x768, .i1⟩
  | .hbm, ⟨26, _⟩ => ⟨S_, .f32⟩
  | .hbm, ⟨27, _⟩ => ⟨S1x8192x768, .f32⟩
  | .hbm, ⟨28, _⟩ => ⟨S1x8192x768, .f32⟩
  | .hbm, ⟨29, _⟩ => ⟨S2x8192x768, .f32⟩
  | .hbm, ⟨30, _⟩ => ⟨S2x8192x768, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x768, .f32⟩
  | .hbm, ⟨38, _⟩ => ⟨S2x8192x768, .f32⟩
  | .hbm, ⟨39, _⟩ => ⟨S2x8192x768, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x768, .f32⟩
  | .hbm, ⟨47, _⟩ => ⟨S2x8192x768, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S2x8192x1, .f32⟩
  | .hbm, ⟨52, _⟩ => ⟨S2x8192x768, .f32⟩
  | .hbm, ⟨53, _⟩ => ⟨S2x8192x768, .f32⟩
  | .hbm, ⟨54, _⟩ => ⟨S1x1x768, .f32⟩
  | .hbm, ⟨55, _⟩ => ⟨S2x8192x768, .f32⟩
  | .hbm, ⟨56, _⟩ => ⟨S2x8192x768, .f32⟩
  | .hbm, ⟨57, _⟩ => ⟨S1x1x768, .f32⟩
  | .hbm, ⟨58, _⟩ => ⟨S2x8192x768, .f32⟩
  | .hbm, ⟨59, _⟩ => ⟨S2x8192x768, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1_S1x1x1_2 : S1.BroadcastsInDim S1x1x1 (![2] : Fin 1 → Fin S1x1x1.rank)
  bcast_S1x1x1_S1x8192x1_0_1_2 : S1x1x1.BroadcastsInDim S1x8192x1 (![0, 1, 2] : Fin 3 → Fin S1x8192x1.rank)
  reducesTo_S1x8192x1_S1x8192_d2 : S1x8192x1.ReducesTo [2] S1x8192
  h_S_ : 0 < S_.numel
  bcast_S1x8192_S1x8192x768_0_1 : S1x8192.BroadcastsInDim S1x8192x768 (![0, 1] : Fin 2 → Fin S1x8192x768.rank)
  bcast_S_S1x8192x768 : S_.BroadcastsInDim S1x8192x768 (![] : Fin 0 → Fin S1x8192x768.rank)
  bcast_S1x8192x768_S2x8192x768_0_1_2 : S1x8192x768.BroadcastsInDim S2x8192x768 (![0, 1, 2] : Fin 3 → Fin S2x8192x768.rank)
  reducesTo_S2x8192x768_S2x8192_d2 : S2x8192x768.ReducesTo [2] S2x8192
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x768_0_1_2 : S2x8192x1.BroadcastsInDim S2x8192x768 (![0, 1, 2] : Fin 3 → Fin S2x8192x768.rank)
  bcast_S768_S1x1x768_2 : S768.BroadcastsInDim S1x1x768 (![2] : Fin 1 → Fin S1x1x768.rank)
  bcast_S1x1x768_S2x8192x768_0_1_2 : S1x1x768.BroadcastsInDim S2x8192x768 (![0, 1, 2] : Fin 3 → Fin S2x8192x768.rank)
  gather_S8192x768_S1x8192x1_S1x8192x768_2_0_n_n_0_2_1768_wf : GatherDims.WF S8192x768 S1x8192x1 S1x8192x768 [2] [0] [] [0] [] 2 ![1, 768]

variable [Facts₀]

def gather_S8192x768_S1x8192x1_S1x8192x768_2_0_n_n_0_2_1768 : GatherDims S8192x768 S1x8192x1 S1x8192x768 where
  offsetDims := [2]
  collapsedSliceDims := [0]
  operandBatchingDims := []
  startIndicesBatchingDims := []
  startIndexMap := [0]
  indexVectorDim := 2
  sliceSizes := ![1, 768]
  wf := gather_S8192x768_S1x8192x1_S1x8192x768_2_0_n_n_0_2_1768_wf

class Facts : Prop extends Facts₀ where

variable [Facts]
-- ==== Proof.LibRowNorm.lean ====
/-
  Normalising one row of extended reals, two ways.

  For a row `e : Fin n → EReal`, a divisor `N` and an offset `ε`, write
    mean = (∑ e) / N,   dev k = e k − mean,   var = (∑ dev²) / N.
  One program scales the deviation by the reciprocal square root, `dev · rsqrt (var + ε)`; another divides it by the
  square root, `dev / sqrt (var + ε)`. On the extended reals these differ at the corners (an infinite deviation, a zero
  or negative radicand), but when every entry of the row is a real number, `N` a positive real and `ε` a positive
  real, the deviation is real and the radicand is a positive real, and then both are `dev · (√(var + ε))⁻¹`.
  The affine map `· w + b` applied afterwards is the same on both sides, so `w` and `b` may be any extended reals.
-/
import Idealize.ShloMosaic.PureOps.Ideal

noncomputable section

namespace RowNorm

open Idealize.ShloMosaic

variable {n : ℕ}

/-- The row's mean: its sum divided by `N`. -/
def mean (N : EReal) (e : Fin n → EReal) : EReal := Ideal.div (∑ k, e k) N

/-- Entry `d`'s deviation from the mean. -/
def dev (N : EReal) (e : Fin n → EReal) (d : Fin n) : EReal := e d - mean N e

/-- The mean of the squared deviations. -/
def var (N : EReal) (e : Fin n → EReal) : EReal := Ideal.div (∑ k, dev N e k * dev N e k) N

/-- The normalised entry through the reciprocal square root, then the affine map. -/
def viaRsqrt (N ε : EReal) (e : Fin n → EReal) (d : Fin n) (w b : EReal) : EReal :=
  dev N e d * Ideal.rsqrt (var N e + ε) * w + b

/-- The normalised entry through a division by the square root, then the affine map. -/
def viaSqrt (N ε : EReal) (e : Fin n → EReal) (d : Fin n) (w b : EReal) : EReal :=
  Ideal.div (dev N e d) (Ideal.sqrt (var N e + ε)) * w + b

/-- The first normalisation depends only on the row's entries, the lane, the scale and the shift. -/
theorem viaRsqrt_congr {N ε : EReal} {e e' : Fin n → EReal} {d d' : Fin n} {w w' b b' : EReal}
    (he : ∀ k, e k = e' k) (hd : d = d') (hw : w = w') (hb : b = b') :
    viaRsqrt N ε e d w b = viaRsqrt N ε e' d' w' b' := by
  subst hd hw hb; rw [funext he]

/-- So does the second. -/
theorem viaSqrt_congr {N ε : EReal} {e e' : Fin n → EReal} {d d' : Fin n} {w w' b b' : EReal}
    (he : ∀ k, e k = e' k) (hd : d = d') (hw : w = w') (hb : b = b') :
    viaSqrt N ε e d w b = viaSqrt N ε e' d' w' b' := by
  subst hd hw hb; rw [funext he]

/-- The embedding of a finite sum of reals is the sum of the embeddings. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a nonzero real, on the extended reals, is the real quotient. -/
theorem div_coe_coe (x : ℝ) {N : ℝ} (hN : N ≠ 0) : Ideal.div (x : EReal) (N : EReal) = ((x / N : ℝ) : EReal) := by
  rw [Ideal.div_coe hN, ← EReal.coe_mul, mul_one_div]

/-- For a real deviation and a positive real radicand, scaling by the reciprocal square root is dividing by the
    square root. -/
theorem mul_rsqrt_eq_div_sqrt (c : ℝ) {y : ℝ} (hy : 0 < y) :
    (c : EReal) * Ideal.rsqrt (y : EReal) = Ideal.div (c : EReal) (Ideal.sqrt (y : EReal)) := by
  have hs : Real.sqrt y ≠ 0 := (Real.sqrt_pos.mpr hy).ne'
  rw [Ideal.rsqrt_coe, Ideal.sqrt_coe, if_neg (not_lt.mpr hy.le), if_neg hy.ne', if_neg (not_lt.mpr hy.le),
    Ideal.div_coe hs, one_div]

/-- THE LAW. A row of reals, a positive real divisor and a positive real offset: the two normalisations agree, whatever
    the scale `w` and the shift `b`. -/
theorem viaRsqrt_eq_viaSqrt {N ε : ℝ} (hN : 0 < N) (hε : 0 < ε) (e : Fin n → EReal)
    (he : ∀ k, ∃ r : ℝ, e k = (r : EReal)) (d : Fin n) (w b : EReal) :
    viaRsqrt (N : EReal) (ε : EReal) e d w b = viaSqrt (N : EReal) (ε : EReal) e d w b := by
  choose f hf using he
  obtain rfl : e = fun k => (f k : EReal) := funext hf
  have hmean : mean (N : EReal) (fun k => (f k : EReal)) = (((∑ k, f k) / N : ℝ) : EReal) := by
    unfold mean; rw [coe_sum, div_coe_coe _ hN.ne']
  have hdev : ∀ k, dev (N : EReal) (fun k => (f k : EReal)) k = ((f k - (∑ k, f k) / N : ℝ) : EReal) := by
    intro k; unfold dev; rw [hmean, ← EReal.coe_sub]
  have hvar : var (N : EReal) (fun k => (f k : EReal))
      = (((∑ k, (f k - (∑ k, f k) / N) * (f k - (∑ k, f k) / N)) / N : ℝ) : EReal) := by
    unfold var; simp only [hdev, ← EReal.coe_mul]; rw [coe_sum, div_coe_coe _ hN.ne']
  have hsq : 0 ≤ ∑ k, (f k - (∑ k, f k) / N) * (f k - (∑ k, f k) / N) :=
    Finset.sum_nonneg fun k _ => mul_self_nonneg _
  have hy : 0 < (∑ k, (f k - (∑ k, f k) / N) * (f k - (∑ k, f k) / N)) / N + ε :=
    add_pos_of_nonneg_of_pos (div_nonneg hsq hN.le) hε
  unfold viaRsqrt viaSqrt
  rw [hdev, hvar, ← EReal.coe_add, mul_rsqrt_eq_div_sqrt _ hy]

/-- The f32 word of `768.0` denotes the real 768. -/
theorem ofBits_768 : Ideal.ofBits .f32 0x44400000#32 = ((768 : ℝ) : EReal) := by
  simp [Ideal.ofBits, Ideal.ieee, -EReal.coe_mul]; norm_num

/-- The f32 word nearest `1e-12` denotes a positive real. -/
theorem ofBits_eps : ∃ ε : ℝ, 0 < ε ∧ Ideal.ofBits .f32 0x2B8CBCCC#32 = (ε : EReal) := by
  refine ⟨(9223372 : ℝ) * 2 ^ (-63 : ℤ), by positivity, ?_⟩
  simp [Ideal.ofBits, Ideal.ieee, -EReal.coe_mul]

/-- The law at the two words a layer normalisation over 768 lanes spells: divisor `768.0`, offset the f32 nearest `1e-12`. -/
theorem viaRsqrt_eq_viaSqrt_768 (e : Fin n → EReal) (he : ∀ k, ∃ r : ℝ, e k = (r : EReal)) (d : Fin n) (w b : EReal) :
    viaRsqrt (Ideal.ofBits .f32 0x44400000#32) (Ideal.ofBits .f32 0x2B8CBCCC#32) e d w b
      = viaSqrt (Ideal.ofBits .f32 0x44400000#32) (Ideal.ofBits .f32 0x2B8CBCCC#32) e d w b := by
  obtain ⟨ε, hε, hw⟩ := ofBits_eps
  rw [ofBits_768, hw]
  exact viaRsqrt_eq_viaSqrt (by norm_num) hε e he d w b

end RowNorm

end
-- ==== Proof.KernelRows.lean ====
/-
  One block of the kernel's output, read at an index.

  At a grid point the body loads a block `P0 : [2, 1024, 768]` of `x`, the matching rows `P1 : [1024, 768]` of the position
  table, and the scale and shift rows `P2, P3 : [1, 768]`. It adds the position rows to both batch entries, takes each
  row's mean and variance by lane sums over the 768 lanes divided by 768, and writes
  `(emb − mean) · rsqrt (var + ε) · scale + shift`. Read at `(b, r, d)` that is `RowNorm.viaRsqrt` of the row
  `k ↦ P0 (b, r, k) + P1 (r, k)` at lane `d`, with scale `P2 (0, d)` and shift `P3 (0, d)`.
-/
import proofs.«110133_g65180423684830_cont_9to1_m_508_16_alg».proof.Proof.Gen.KernelIdeal.Value
import proofs.«110133_g65180423684830_cont_9to1_m_508_16_alg».proof.Proof.LibRowNorm
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.TcCoe Idealize.ShloMosaic.ValueIdx

/-- The embedded block: the position rows added to both batch entries. -/
def embBlk (P0 : FVec Ideal S2x1024x768 .f32) (P1 : FVec Ideal S1024x768 .f32) : FVec Ideal S2x1024x768 .f32 :=
  addf P0 (broadcastTo S2x1024x768 (shapeCast S1x1024x768 P1 shapeCasts_S1024x768_S1x1024x768) broadcasts_S1x1024x768_S2x1024x768)

/-- The sum over the 768 lanes of each row. -/
def laneSum (v : FVec Ideal S2x1024x768 .f32) : FVec Ideal S2x1024 .f32 :=
  multiReduction .add [2] S2x1024 v 0x00000000#32 reduces_S2x1024x768_S2x1024 (.inl rfl) rfl

/-- A per-row value divided by 768 and repeated along the lanes. -/
def overLanes (M : FVec Ideal S2x1024 .f32) : FVec Ideal S2x1024x768 .f32 :=
  broadcastTo S2x1024x768
    (divf (shapeCast S2x1024x1 M shapeCasts_S2x1024_S2x1024x1) (broadcast S2x1024x1 (Scalar.ofBits .f32 0x44400000#32)))
    broadcasts_S2x1024x1_S2x1024x768

/-- The block with each row's mean subtracted. -/
def cenBlk (P0 : FVec Ideal S2x1024x768 .f32) (P1 : FVec Ideal S1024x768 .f32) : FVec Ideal S2x1024x768 .f32 :=
  subf (embBlk P0 P1) (overLanes (laneSum (embBlk P0 P1)))

/-- The embedded block at `(b, r, k)`. -/
theorem embBlk_apply (P0 : FVec Ideal S2x1024x768 .f32) (P1 : FVec Ideal S1024x768 .f32) (b : Fin 2) (r : Fin 1024) (k : Fin 768) :
    embBlk P0 P1 (ix3 b r k) = P0 (ix3 b r k) + P1 (ix2 r k) := by
  unfold embBlk
  rw [addf_apply]
  congr 1
  refine (broadcastTo_apply _ _ (ix3 b r k) (ix3 (0 : Fin 1) r k) (fun a => ?_)).trans ?_
  · match a with
    | ⟨0, _⟩ => show 0 = (if (1 : Nat) = 1 then 0 else b.val); rw [if_pos rfl]
    | ⟨1, _⟩ => show r.val = (if (1024 : Nat) = 1 then 0 else r.val); rw [if_neg (by decide)]
    | ⟨2, _⟩ => show k.val = (if (768 : Nat) = 1 then 0 else k.val); rw [if_neg (by decide)]
  · refine shapeCast_apply _ _ (ix3 (0 : Fin 1) r k) (ix2 r k) ?_
    rw [Shape.rowMajor_val_two, Shape.rowMajor_val_three]
    show r.val * 768 + k.val = (0 * 1024 + r.val) * 768 + k.val
    omega

/-- A lane sum at row `(b, r)` is the sum over the lanes of that row. -/
theorem laneSum_apply (v : FVec Ideal S2x1024x768 .f32) (b : Fin 2) (r : Fin 1024) :
    laneSum v (ix2 b r) = ∑ k : Fin 768, v (ix3 b r k) := by
  unfold laneSum
  refine (Ideal.multiReduction_add_single v _ reduces_S2x1024x768_S2x1024 _ _ (ix2 b r)).trans ?_
  refine Finset.sum_congr rfl fun k _ => congrArg v (funext fun a => Fin.ext ?_)
  match a with
  | ⟨0, _⟩ => rfl
  | ⟨1, _⟩ => rfl
  | ⟨2, _⟩ => rfl

/-- A per-row value over the lanes at `(b, r, k)`: that row's value divided by 768. -/
theorem overLanes_apply (M : FVec Ideal S2x1024 .f32) (b : Fin 2) (r : Fin 1024) (k : Fin 768) :
    overLanes M (ix3 b r k) = Ideal.div (M (ix2 b r)) (Ideal.ofBits .f32 0x44400000#32) := by
  unfold overLanes
  refine (broadcastTo_apply _ _ (ix3 b r k) (ix3 b r (0 : Fin 1)) (fun a => ?_)).trans ?_
  · match a with
    | ⟨0, _⟩ => show b.val = (if (2 : Nat) = 1 then 0 else b.val); rw [if_neg (by decide)]
    | ⟨1, _⟩ => show r.val = (if (1024 : Nat) = 1 then 0 else r.val); rw [if_neg (by decide)]
    | ⟨2, _⟩ => show 0 = (if (1 : Nat) = 1 then 0 else k.val); rw [if_pos rfl]
  · rw [divf_apply, broadcast_apply]
    congr 1
    refine shapeCast_apply _ _ (ix3 b r (0 : Fin 1)) (ix2 b r) ?_
    rw [Shape.rowMajor_val_two, Shape.rowMajor_val_three]
    show b.val * 1024 + r.val = (b.val * 1024 + r.val) * 1 + 0
    omega

/-- The row of the embedded block at `(b, r)`. -/
abbrev rowOf (P0 : FVec Ideal S2x1024x768 .f32) (P1 : FVec Ideal S1024x768 .f32) (b : Fin 2) (r : Fin 1024) : Fin 768 → EReal :=
  fun k => P0 (ix3 b r k) + P1 (ix2 r k)

/-- The centred block at `(b, r, k)` is the row's deviation from its mean. -/
theorem cenBlk_apply (P0 : FVec Ideal S2x1024x768 .f32) (P1 : FVec Ideal S1024x768 .f32) (b : Fin 2) (r : Fin 1024) (k : Fin 768) :
    cenBlk P0 P1 (ix3 b r k) = RowNorm.dev (Ideal.ofBits .f32 0x44400000#32) (rowOf P0 P1 b r) k := by
  unfold cenBlk
  rw [subf_apply, embBlk_apply, overLanes_apply, laneSum_apply]
  unfold RowNorm.dev RowNorm.mean
  simp only [embBlk_apply]

/-- The body's result at a block index, in the stages above: each operand read where the index's element came from. -/
theorem block_form (P0 : FVec Ideal S2x1024x768 .f32) (P1 : FVec Ideal S1024x768 .f32) (P2 P3 : FVec Ideal S1x768 .f32)
    (y : S2x1024x768.Idx) :
    Cert.KernelIdeal.Value.E4 (F := Ideal) P0 P1 P2 P3 y
      = (P0 (Value.ix4_0 y) + P1 (Value.ix4_1 y)
            - Ideal.div (laneSum (embBlk P0 P1) (Value.ix4_2 y)) (Ideal.ofBits .f32 0x44400000#32))
          * Ideal.rsqrt (Ideal.div (laneSum (mulf (cenBlk P0 P1) (cenBlk P0 P1)) (Value.ix4_3 y)) (Ideal.ofBits .f32 0x44400000#32)
              + Ideal.ofBits .f32 0x2B8CBCCC#32)
          * P2 (Value.ix4_4 y) + P3 (Value.ix4_5 y) := rfl

/-- Where the element at `(b, r, d)` reads `x`'s block: at `(b, r, d)`. -/
theorem at_x (b : Fin 2) (r : Fin 1024) (d : Fin 768) : Value.ix4_0 (ix3 b r d) = ix3 b r d := by
  funext a; match a with | ⟨0, _⟩ => rfl | ⟨1, _⟩ => rfl | ⟨2, _⟩ => rfl
/-- … the position rows: at `(r, d)`. -/
theorem at_pos (b : Fin 2) (r : Fin 1024) (d : Fin 768) : Value.ix4_1 (ix3 b r d) = ix2 r d := by
  funext a; match a with | ⟨0, _⟩ => rfl | ⟨1, _⟩ => rfl
/-- … the row sums: at `(b, r)`. -/
theorem at_sum (b : Fin 2) (r : Fin 1024) (d : Fin 768) : Value.ix4_2 (ix3 b r d) = ix2 b r := by
  funext a; match a with | ⟨0, _⟩ => rfl | ⟨1, _⟩ => rfl
/-- … the sums of squares: at `(b, r)`. -/
theorem at_sqsum (b : Fin 2) (r : Fin 1024) (d : Fin 768) : Value.ix4_3 (ix3 b r d) = ix2 b r := by
  funext a; match a with | ⟨0, _⟩ => rfl | ⟨1, _⟩ => rfl
/-- … the scale row: at `(0, d)`. -/
theorem at_scale (b : Fin 2) (r : Fin 1024) (d : Fin 768) : Value.ix4_4 (ix3 b r d) = ix2 (0 : Fin 1) d := by
  funext a; match a with | ⟨0, _⟩ => rfl | ⟨1, _⟩ => rfl
/-- … the shift row: at `(0, d)`. -/
theorem at_shift (b : Fin 2) (r : Fin 1024) (d : Fin 768) : Value.ix4_5 (ix3 b r d) = ix2 (0 : Fin 1) d := by
  funext a; match a with | ⟨0, _⟩ => rfl | ⟨1, _⟩ => rfl

/-- THE BLOCK AT AN INDEX: the body's result at `(b, r, d)` is the row `(b, r)` of the embedded block normalised through
    the reciprocal square root, at lane `d`, scaled and shifted by the two loaded rows. -/
theorem block_apply (P0 : FVec Ideal S2x1024x768 .f32) (P1 : FVec Ideal S1024x768 .f32) (P2 P3 : FVec Ideal S1x768 .f32)
    (b : Fin 2) (r : Fin 1024) (d : Fin 768) :
    Cert.KernelIdeal.Value.E4 (F := Ideal) P0 P1 P2 P3 (ix3 b r d)
      = RowNorm.viaRsqrt (Ideal.ofBits .f32 0x44400000#32) (Ideal.ofBits .f32 0x2B8CBCCC#32) (rowOf P0 P1 b r) d
          (P2 (ix2 (0 : Fin 1) d)) (P3 (ix2 (0 : Fin 1) d)) := by
  rw [block_form, at_x, at_pos, at_sum, at_sqsum, at_scale, at_shift, laneSum_apply, laneSum_apply]
  unfold RowNorm.viaRsqrt RowNorm.var RowNorm.dev RowNorm.mean
  simp only [embBlk_apply, mulf_apply, cenBlk_apply, RowNorm.dev, RowNorm.mean]

end Cert.KernelIdeal.Rows

end
-- ==== Proof.Spec.lean ====
/-
  What both programs compute, as one function of the four argument arrays.

  For `x : [2, 8192, 768]`, the position table `pe : [8192, 768]`, a scale `w : [768]` and a shift `b : [768]`: the row
  `(p, r)` of the embedded array is `k ↦ x (p, r, k) + pe (r, k)`, and the result at `(p, r, d)` is that row normalised
  over its 768 lanes (mean and variance by sums divided by `768`, offset the f32 nearest `1e-12`) at lane `d`, times
  `w d` plus `b d`. The kernel scales by the reciprocal square root (`viaKernel`), the reference divides by the square
  root (`viaReference`); where `x` and `pe` hold real numbers the two are one array.
-/
import proofs.«110133_g65180423684830_cont_9to1_m_508_16_alg».proof.Proof.LibRowNorm
import Idealize.ShloMosaic.Lib.ValueIdx

noncomputable section

namespace LayerNormSpec

open Idealize.ShloMosaic Idealize.ShloMosaic.ValueIdx

/-- Row `(p, r)` of the embedded array. -/
def row (x : (⟨3, ![2, 8192, 768]⟩ : Shape).Idx → EReal) (pe : (⟨2, ![8192, 768]⟩ : Shape).Idx → EReal)
    (p : Fin 2) (r : Fin 8192) : Fin 768 → EReal :=
  fun k => x (ix3 p r k) + pe (ix2 r k)

/-- The result through the reciprocal square root. -/
def viaKernel (x : (⟨3, ![2, 8192, 768]⟩ : Shape).Idx → EReal) (pe : (⟨2, ![8192, 768]⟩ : Shape).Idx → EReal)
    (w b : (⟨1, ![768]⟩ : Shape).Idx → EReal) : (⟨3, ![2, 8192, 768]⟩ : Shape).Idx → EReal :=
  fun i => RowNorm.viaRsqrt (Ideal.ofBits .f32 0x44400000#32) (Ideal.ofBits .f32 0x2B8CBCCC#32) (row x pe (i 0) (i 1)) (i 2)
    (w (ix1 (i 2))) (b (ix1 (i 2)))

/-- The result through a division by the square root. -/
def viaReference (x : (⟨3, ![2, 8192, 768]⟩ : Shape).Idx → EReal) (pe : (⟨2, ![8192, 768]⟩ : Shape).Idx → EReal)
    (w b : (⟨1, ![768]⟩ : Shape).Idx → EReal) : (⟨3, ![2, 8192, 768]⟩ : Shape).Idx → EReal :=
  fun i => RowNorm.viaSqrt (Ideal.ofBits .f32 0x44400000#32) (Ideal.ofBits .f32 0x2B8CBCCC#32) (row x pe (i 0) (i 1)) (i 2)
    (w (ix1 (i 2))) (b (ix1 (i 2)))

/-- Where `x` and `pe` hold real numbers the two results are one array: every embedded row is then a row of reals,
    and the row law applies. -/
theorem viaKernel_eq_viaReference (x : (⟨3, ![2, 8192, 768]⟩ : Shape).Idx → EReal) (pe : (⟨2, ![8192, 768]⟩ : Shape).Idx → EReal)
    (w b : (⟨1, ![768]⟩ : Shape).Idx → EReal) (hx : ∀ i, ∃ r : ℝ, x i = (r : EReal)) (hpe : ∀ i, ∃ r : ℝ, pe i = (r : EReal)) :
    viaKernel x pe w b = viaReference x pe w b := by
  funext i
  refine RowNorm.viaRsqrt_eq_viaSqrt_768 _ (fun k => ?_) _ _ _
  obtain ⟨a, ha⟩ := hx (ix3 (i 0) (i 1) k)
  obtain ⟨c, hc⟩ := hpe (ix2 (i 1) k)
  exact ⟨a + c, by unfold row; rw [ha, hc, EReal.coe_add]⟩

end LayerNormSpec

end
-- ==== Proof.KernelArray.lean ====
/-
  From blocks to the whole output array of the kernel.

  The grid has eight points; point `t` works on rows `1024·t … 1024·t + 1023` of both batch entries: it reads that block
  of `x`, the same rows of the position table, and the whole scale and shift rows (the [768] arguments recast as
  [1, 768] before the launch), and writes back the same block of the output. What it writes is the row-wise result of
  `LayerNormSpec.viaKernel` read through the block, because row `r` of the block is row `1024·t + r` of the arrays and
  the result at a row depends on that row only. The eight blocks tile the array, so after the run the output array is
  `viaKernel` of the four arguments.
-/
import proofs.«110133_g65180423684830_cont_9to1_m_508_16_alg».proof.Proof.KernelRows
import proofs.«110133_g65180423684830_cont_9to1_m_508_16_alg».proof.Proof.Spec
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- WHAT THE BODY LEAVES, at a block index, over plain blocks: the row of `x0 + x1` through `y`, normalised at lane
    `y 2`, scaled and shifted by the two loaded rows. -/
theorem body_apply (x0 : Vec Ideal S2x1024x768 .f32) (x1 : Vec Ideal S1024x768 .f32) (x2 x3 : Vec Ideal S1x768 .f32)
    (b : Fin 2) (r : Fin 1024) (d : Fin 768) :
    out0_4 x0 x1 x2 x3 (ix3 b r d)
      = RowNorm.viaRsqrt (Ideal.ofBits .f32 0x44400000#32) (Ideal.ofBits .f32 0x2B8CBCCC#32)
          (fun k => x0 (ix3 b r k) + x1 (ix2 r k)) d (x2 (ix2 (0 : Fin 1) d)) (x3 (ix2 (0 : Fin 1) d)) := by
  unfold out0_4
  refine (Cert.KernelIdeal.Value.canon4_eq _ _ _ _ (ix3 b r d)).trans ?_
  simp only [View.ld_unit_zero (S := S2x1024x768) zero3, View.ld_unit_zero (S := S1024x768) zero2,
    View.ld_unit_zero (S := S1x768) zero2]
  exact Rows.block_apply x0 x1 x2 x3 b r d

/-- The printed index maps over the eight points: the `x` block and the output block move together along the rows, the
    position block's row index is the same, everything else stays at block 0. -/
theorem idx_facts : ∀ t : Fin cfg0.N,
    win0_0.index t (0 : Fin 3) = 0 ∧ win0_0.index t (1 : Fin 3) = win0_4.index t (1 : Fin 3) ∧ win0_0.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (2 : Fin 3) = 0 ∧ win0_4.index t (1 : Fin 3) ≤ 7 :=
  (by decide +kernel : ∀ t : Fin grid0.N, _)

/-- Every row block is some point's. -/
theorem idx_onto : ∀ q : Fin 8, ∃ t : Fin cfg0.N, win0_4.index t = ![0, q.val, 0] :=
  (by decide +kernel : ∀ q : Fin 8, ∃ t : Fin grid0.N, win0_4.index t = ![0, q.val, 0])

/-- The scale row as the region finds it: the [768] argument recast as [1, 768]. -/
theorem V_scale (c : Dev nD) :
    (V m c main_call0_v0 : S1x768.Idx → EReal) = shapeCast S1x768 (m ((c : Thread nD τ).loc main_arg2)) shapeCasts_S768_S1x768 := by
  dsimp only [Gen.V, Gen.hostOps0]; after_results; rfl

/-- The shift row likewise. -/
theorem V_shift (c : Dev nD) :
    (V m c main_call0_v1 : S1x768.Idx → EReal) = shapeCast S1x768 (m ((c : Thread nD τ).loc main_arg3)) shapeCasts_S768_S1x768 := by
  dsimp only [Gen.V, Gen.hostOps0]; after_results; rfl

/-- WHAT POINT `t` WRITES BACK is block `t` of `viaKernel` of the arguments. -/
theorem flushed_eq (c : Dev nD) (t : Fin cfg0.N) :
    (dats m 0 c).flushed 4 t = ((cfg0.win 4).blk t).view.read (Elt Ideal)
      (LayerNormSpec.viaKernel (m ((c : Thread nD τ).loc main_arg0)) (m ((c : Thread nD τ).loc main_arg1))
        (m ((c : Thread nD τ).loc main_arg2)) (m ((c : Thread nD τ).loc main_arg3))) := by
  rw [Cert.KernelIdeal.Value.flushed4]
  obtain ⟨f00, f01, f02, f10, f11, f20, f21, f30, f31, f40, f42, f41⟩ := idx_facts t
  funext j
  obtain ⟨b, r, d, rfl⟩ : ∃ (b : Fin 2) (r : Fin 1024) (d : Fin 768), j = ix3 b r d := ⟨j 0, j 1, j 2, eq_ix3 j⟩
  show out0_4 (iblk m c 0 t) (iblk m c 1 t) (iblk m c 2 t) (iblk m c 3 t) (ix3 b r d)
    = LayerNormSpec.viaKernel _ _ _ _ (((cfg0.win 4).blk t).view.emb (ix3 b r d))
  refine (body_apply _ _ _ _ b r d).trans ?_
  unfold LayerNormSpec.viaKernel
  refine RowNorm.viaRsqrt_congr (fun k => ?_) ?_ ?_ ?_
  · unfold LayerNormSpec.row
    congr 1
    · show V m c main_arg0 (((cfg0.win 0).blk t).view.emb (ix3 b r k)) = _
      rw [V_main_arg0 m c]
      refine congrArg _ (funext fun a => Fin.ext ?_)
      match a with
      | ⟨0, _⟩ => show win0_0.index t (0 : Fin 3) * 2 + 1 * b.val = win0_4.index t (0 : Fin 3) * 2 + 1 * b.val; omega
      | ⟨1, _⟩ => show win0_0.index t (1 : Fin 3) * 1024 + 1 * r.val = win0_4.index t (1 : Fin 3) * 1024 + 1 * r.val; omega
      | ⟨2, _⟩ => show win0_0.index t (2 : Fin 3) * 768 + 1 * k.val = k.val; omega
    · show V m c main_arg1 (((cfg0.win 1).blk t).view.emb (ix2 r k)) = _
      rw [V_main_arg1 m c]
      refine congrArg _ (funext fun a => Fin.ext ?_)
      match a with
      | ⟨0, _⟩ => show win0_1.index t (0 : Fin 2) * 1024 + 1 * r.val = win0_4.index t (1 : Fin 3) * 1024 + 1 * r.val; omega
      | ⟨1, _⟩ => show win0_1.index t (1 : Fin 2) * 768 + 1 * k.val = k.val; omega
  · refine Fin.ext ?_
    show d.val = win0_4.index t (2 : Fin 3) * 768 + 1 * d.val
    omega
  · show V m c main_call0_v0 (((cfg0.win 2).blk t).view.emb (ix2 (0 : Fin 1) d)) = _
    have he : ((cfg0.win 2).blk t).view.emb (ix2 (0 : Fin 1) d) = ix2 (0 : Fin 1) d := by
      funext a; refine Fin.ext ?_
      match a with
      | ⟨0, _⟩ => show win0_2.index t (0 : Fin 2) * 1 + 1 * 0 = 0; omega
      | ⟨1, _⟩ => show win0_2.index t (1 : Fin 2) * 768 + 1 * d.val = d.val; omega
    rw [he, V_scale m c]
    refine (shapeCast_a_1a_apply _ _ (0 : Fin 1) d).trans (congrArg _ (funext fun a => Fin.ext ?_))
    match a with
    | ⟨0, _⟩ => show d.val = win0_4.index t (2 : Fin 3) * 768 + 1 * d.val; omega
  · show V m c main_call0_v1 (((cfg0.win 3).blk t).view.emb (ix2 (0 : Fin 1) d)) = _
    have he : ((cfg0.win 3).blk t).view.emb (ix2 (0 : Fin 1) d) = ix2 (0 : Fin 1) d := by
      funext a; refine Fin.ext ?_
      match a with
      | ⟨0, _⟩ => show win0_3.index t (0 : Fin 2) * 1 + 1 * 0 = 0; omega
      | ⟨1, _⟩ => show win0_3.index t (1 : Fin 2) * 768 + 1 * d.val = d.val; omega
    rw [he, V_shift m c]
    refine (shapeCast_a_1a_apply _ _ (0 : Fin 1) d).trans (congrArg _ (funext fun a => Fin.ext ?_))
    match a with
    | ⟨0, _⟩ => show d.val = win0_4.index t (2 : Fin 3) * 768 + 1 * d.val; omega

/-- An index of the output array is in point `t`'s block iff each coordinate is in the block's range on its axis. -/
theorem mem_blk (t : Fin cfg0.N) (i : S2x8192x768.Idx) :
    i ∈ ((cfg0.win 4).blk t).view.set ↔ ∀ a : Fin 3, win0_4.index t a * S2x1024x768.size a ≤ (i a).val
      ∧ (i a).val < win0_4.index t a * S2x1024x768.size a + S2x1024x768.size a := by
  show i ∈ ((View.whole main_v0).slice (win0_4.rect t)).set ↔ _
  rw [View.set_slice_whole, Rect.mem_set_unit]
  exact Iff.rfl

/-- THE BLOCKS TILE THE ARRAY: row `ρ` lies in the block of the point whose row-block index is `ρ / 1024`. -/
theorem cover (i : S2x8192x768.Idx) : ∃ t : Fin cfg0.N, (cfg0.win 4).flush t = true ∧ i ∈ ((cfg0.win 4).blk t).view.set := by
  have hi0 : (i 0).val < 2 := (i 0).isLt
  have hi1 : (i 1).val < 8192 := (i 1).isLt
  have hi2 : (i 2).val < 768 := (i 2).isLt
  obtain ⟨t, ht⟩ := idx_onto ⟨(i 1).val / 1024, by omega⟩
  have q0 : win0_4.index t (0 : Fin 3) = 0 := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- THE ARRAY after the run is `viaKernel` of the four arguments. -/
theorem final (c : Dev nD) : (dats m 0 c).arrAt 4 cfg0.N
    = LayerNormSpec.viaKernel (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- THE RUN. Every weakly fair execution of the kernel's program terminates with the output at `viaKernel` of the
    arguments and the arguments unchanged. -/
theorem run : θ_run defs (onTc (τ := τ) (main (F := Ideal))) ⟨m, fun _ => 0, ρ⟩ fun r => ∀ c : Dev nD,
      r.2.mem ((c : Thread nD τ).loc main_v0)
        = LayerNormSpec.viaKernel (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefRun.lean ====
/-
  The reference program's run, read back.

  The reference computes, on the host, `layer_norm(x + take(pos_emb, arange(8192)))` over the last axis. Its @main is a
  straight line of host operations once the two outlined functions are read at their call sites: jnp.take's body (wrap a
  negative index by 8192, mark the indices that land in `[0, 8191]`, gather the rows, fill the rest with the NaN word)
  and the select it calls. The line is named in stages here — the looked-up rows, the embedded rows `x + rows`, a row's
  mean (sum over the 768 lanes divided by 768), the centred rows, the variance (the mean of the squared centred rows),
  and the result `centred / sqrt (var + ε) · w + b` — and every weakly fair execution ends with the result buffer at that
  composition of the arguments, the arguments unchanged.
-/
import proofs.«110133_g65180423684830_cont_9to1_m_508_16_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The position ids `0, 1, …, 8191` as one row. -/
def positionIds : IVec S1x8192 32 := broadcastInDim S1x8192 ![1] bcast_S8192_S1x8192_1 (iotaInDim S8192 32 0)

/-- The gather's start indices: an id below zero is wrapped by 8192, and the row gets a trailing unit axis. -/
def startIdx (ids : IVec S1x8192 32) : IVec S1x8192x1 32 :=
  broadcastInDim S1x8192x1 ![0, 1] bcast_S1x8192_S1x8192x1_0_1
    (select (cmpi .slt ids (broadcastInDim S1x8192 ![] bcast_S_S1x8192 (constantI S_ 32 0#32)))
      (addi ids (broadcastInDim S1x8192 ![] bcast_S_S1x8192 (constantI S_ 32 8192#32))) ids)

/-- Which start indices lie in `[0, 8191]`. -/
def inBounds (st : IVec S1x8192x1 32) : IVec S1x8192 1 :=
  Host.reduce IntOp.andi
    (andi (cmpi .sge st (broadcastInDim S1x8192x1 ![] bcast_S_S1x8192x1 (constantI S_ 32 0#32)))
      (cmpi .sle st (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- jnp.take along axis 0: the gathered rows where the index is in bounds, the NaN word elsewhere. -/
def takeRows (pe : FVec F S8192x768 .f32) (ids : IVec S1x8192 32) : FVec F S1x8192x768 .f32 :=
  select (broadcastInDim S1x8192x768 ![0, 1] bcast_S1x8192_S1x8192x768_0_1 (inBounds (startIdx ids)))
    (Host.gather gather_S8192x768_S1x8192x1_S1x8192x768_2_0_n_n_0_2_1768 pe (startIdx ids))
    (broadcastInDim S1x8192x768 ![] bcast_S_S1x8192x768 (constant (F := F) S_ .f32 0x7FC00000#32))

/-- The embedded rows: `x` plus the looked-up position rows, the same for both batch entries. -/
def embedded (x : FVec F S2x8192x768 .f32) (pe : FVec F S8192x768 .f32) : FVec F S2x8192x768 .f32 :=
  addf x (broadcastInDim S2x8192x768 ![0, 1, 2] bcast_S1x8192x768_S2x8192x768_0_1_2 (takeRows pe positionIds))

/-- A row's mean over the 768 lanes, kept as a column. -/
def rowMean (e : FVec F S2x8192x768 .f32) : FVec F S2x8192x1 .f32 :=
  Host.divf
    (broadcastInDim S2x8192x1 ![0, 1] bcast_S2x8192_S2x8192x1_0_1
      (Host.reduceAdd e (constant (F := F) S_ .f32 0x00000000#32) reducesTo_S2x8192x768_S2x8192_d2 h_S_))
    (broadcastInDim S2x8192x1 ![] bcast_S_S2x8192x1 (constant (F := F) S_ .f32 0x44400000#32))

/-- The rows with their mean subtracted. -/
def centered (e : FVec F S2x8192x768 .f32) : FVec F S2x8192x768 .f32 :=
  subf e (broadcastInDim S2x8192x768 ![0, 1, 2] bcast_S2x8192x1_S2x8192x768_0_1_2 (rowMean e))

/-- The result: the centred rows divided by `sqrt (variance + ε)`, scaled by `w` and shifted by `b` lane by lane. -/
def normalized (e : FVec F S2x8192x768 .f32) (w b : FVec F S768 .f32) : FVec F S2x8192x768 .f32 :=
  addf
    (mulf
      (Host.divf (centered e)
        (broadcastInDim S2x8192x768 ![0, 1, 2] bcast_S2x8192x1_S2x8192x768_0_1_2
          (Host.sqrt (addf (rowMean (mulf (centered e) (centered e)))
            (broadcastInDim S2x8192x1 ![] bcast_S_S2x8192x1 (constant (F := F) S_ .f32 0x2B8CBCCC#32))))))
      (broadcastInDim S2x8192x768 ![0, 1, 2] bcast_S1x1x768_S2x8192x768_0_1_2
        (broadcastInDim S1x1x768 ![2] bcast_S768_S1x1x768_2 w)))
    (broadcastInDim S2x8192x768 ![0, 1, 2] bcast_S1x1x768_S2x8192x768_0_1_2
      (broadcastInDim S1x1x768 ![2] bcast_S768_S1x1x768_2 b))

/-! ## The program as a line of operations -/

/-- @main's operations in order, jnp.take's and its select's listed at the call over the call's buffers. -/
abbrev ops : List (HloOp τ sig (Elt F)) :=
  [ StableHlo.nullary main_v0 (iotaInDim S8192 32 0),
    StableHlo.unary main_v0 main_v1 (broadcastInDim S1x8192 ![1] bcast_S8192_S1x8192_1 : (⟨S8192, .i32⟩ : BufTy).Contents (Elt F) → (⟨S1x8192, .i32⟩ : BufTy).Contents (Elt F)),
    StableHlo.TRef.nullary main_call0.c (constantI S_ 32 0#32),
    StableHlo.TRef.unary main_call0.c main_call0.v0 (broadcastInDim S1x8192 ![] bcast_S_S1x8192),
    StableHlo.TRef.binary (.of main_v1) main_call0.v0 main_call0.v1 (cmpi .slt),
    StableHlo.TRef.nullary main_call0.c_0 (constantI S_ 32 8192#32),
    StableHlo.TRef.unary main_call0.c_0 main_call0.v2 (broadcastInDim S1x8192 ![] bcast_S_S1x8192),
    StableHlo.TRef.binary (.of main_v1) main_call0.v2 main_call0.v3 addi,
    StableHlo.TRef.ternary main_call0.v1 main_call0.v3 (.of main_v1) main_call0.call0.v0 select,
    StableHlo.TRef.unary main_call0.call0.v0 main_call0.v5 (broadcastInDim S1x8192x1 ![0, 1] bcast_S1x8192_S1x8192x1_0_1),
    StableHlo.TRef.nullary main_call0.c_1 (constantI S1 32 8191#32),
    StableHlo.TRef.nullary main_call0.c_2 (constantI S_ 32 0#32),
    StableHlo.TRef.unary main_call0.c_2 main_call0.v6 (broadcastInDim S1x8192x1 ![] bcast_S_S1x8192x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1x8192x1 ![0, 1, 2] bcast_S1x1x1_S1x8192x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1x8192x1_S1x8192_d2 h_S_),
    StableHlo.TRef.binary (.of main_arg1) main_call0.v5 main_call0.v13 (fun x i => Host.gather gather_S8192x768_S1x8192x1_S1x8192x768_2_0_n_n_0_2_1768 x i),
    StableHlo.TRef.unary main_call0.v12 main_call0.v14 (broadcastInDim S1x8192x768 ![0, 1] bcast_S1x8192_S1x8192x768_0_1),
    StableHlo.TRef.nullary main_call0.cst (constant S_ .f32 0x7FC00000#32),
    StableHlo.TRef.unary main_call0.cst main_call0.v15 (broadcastInDim S1x8192x768 ![] bcast_S_S1x8192x768),
    StableHlo.TRef.ternary main_call0.v14 main_call0.v13 main_call0.v15 main_call0.v16 select,
    StableHlo.unary main_v2 main_v3 (broadcastInDim S2x8192x768 ![0, 1, 2] bcast_S1x8192x768_S2x8192x768_0_1_2 : (⟨S1x8192x768, .f32⟩ : BufTy).Contents (Elt F) → (⟨S2x8192x768, .f32⟩ : BufTy).Contents (Elt F)),
    StableHlo.binary main_arg0 main_v3 main_v4 (addf : (⟨S2x8192x768, .f32⟩ : BufTy).Contents (Elt F) → (⟨S2x8192x768, .f32⟩ : BufTy).Contents (Elt F) → (⟨S2x8192x768, .f32⟩ : BufTy).Contents (Elt F)),
    StableHlo.nullary main_cst (constant S_ .f32 0x00000000#32),
    StableHlo.binary main_v4 main_cst main_v5 ((fun x v => Host.reduceAdd x v reducesTo_S2x8192x768_S2x8192_d2 h_S_) : (⟨S2x8192x768, .f32⟩ : BufTy).Contents (Elt F) → (⟨S_, .f32⟩ : BufTy).Contents (Elt F) → (⟨S2x8192, .f32⟩ : BufTy).Contents (Elt F)),
    StableHlo.unary main_v5 main_v6 (broadcastInDim S2x8192x1 ![0, 1] bcast_S2x8192_S2x8192x1_0_1 : (⟨S2x8192, .f32⟩ : BufTy).Contents (Elt F) → (⟨S2x8192x1, .f32⟩ : BufTy).Contents (Elt F)),
    StableHlo.nullary main_cst_0 (constant S_ .f32 0x44400000#32),
    StableHlo.unary main_cst_0 main_v7 (broadcastInDim S2x8192x1 ![] bcast_S_S2x8192x1 : (⟨S_, .f32⟩ : BufTy).Contents (Elt F) → (⟨S2x8192x1, .f32⟩ : BufTy).Contents (Elt F)),
    StableHlo.binary main_v6 main_v7 main_v8 (Host.divf : (⟨S2x8192x1, .f32⟩ : BufTy).Contents (Elt F) → (⟨S2x8192x1, .f32⟩ : BufTy).Contents (Elt F) → (⟨S2x8192x1, .f32⟩ : BufTy).Contents (Elt F)),
    StableHlo.unary main_v8 main_v9 (broadcastInDim S2x8192x768 ![0, 1, 2] bcast_S2x8192x1_S2x8192x768_0_1_2 : (⟨S2x8192x1, .f32⟩ : BufTy).Contents (Elt F) → (⟨S2x8192x768, .f32⟩ : BufTy).Contents (Elt F)),
    StableHlo.binary main_v4 main_v9 main_v10 (subf : (⟨S2x8192x768, .f32⟩ : BufTy).Contents (Elt F) → (⟨S2x8192x768, .f32⟩ : BufTy).Contents (Elt F) → (⟨S2x8192x768, .f32⟩ : BufTy).Contents (Elt F)),
    StableHlo.binary main_v10 main_v10 main_v11 (mulf : (⟨S2x8192x768, .f32⟩ : BufTy).Contents (Elt F) → (⟨S2x8192x768, .f32⟩ : BufTy).Contents (Elt F) → (⟨S2x8192x768, .f32⟩ : BufTy).Contents (Elt F)),
    StableHlo.nullary main_cst_1 (constant S_ .f32 0x00000000#32),
    StableHlo.binary main_v11 main_cst_1 main_v12 ((fun x v => Host.reduceAdd x v reducesTo_S2x8192x768_S2x8192_d2 h_S_) : (⟨S2x8192x768, .f32⟩ : BufTy).Contents (Elt F) → (⟨S_, .f32⟩ : BufTy).Contents (Elt F) → (⟨S2x8192, .f32⟩ : BufTy).Contents (Elt F)),
    StableHlo.unary main_v12 main_v13 (broadcastInDim S2x8192x1 ![0, 1] bcast_S2x8192_S2x8192x1_0_1 : (⟨S2x8192, .f32⟩ : BufTy).Contents (Elt F) → (⟨S2x8192x1, .f32⟩ : BufTy).Contents (Elt F)),
    StableHlo.nullary main_cst_2 (constant S_ .f32 0x44400000#32),
    StableHlo.unary main_cst_2 main_v14 (broadcastInDim S2x8192x1 ![] bcast_S_S2x8192x1 : (⟨S_, .f32⟩ : BufTy).Contents (Elt F) → (⟨S2x8192x1, .f32⟩ : BufTy).Contents (Elt F)),
    StableHlo.binary main_v13 main_v14 main_v15 (Host.divf : (⟨S2x8192x1, .f32⟩ : BufTy).Contents (Elt F) → (⟨S2x8192x1, .f32⟩ : BufTy).Contents (Elt F) → (⟨S2x8192x1, .f32⟩ : BufTy).Contents (Elt F)),
    StableHlo.unary main_v8 main_v16 (broadcastInDim S2x8192x768 ![0, 1, 2] bcast_S2x8192x1_S2x8192x768_0_1_2 : (⟨S2x8192x1, .f32⟩ : BufTy).Contents (Elt F) → (⟨S2x8192x768, .f32⟩ : BufTy).Contents (Elt F)),
    StableHlo.binary main_v4 main_v16 main_v17 (subf : (⟨S2x8192x768, .f32⟩ : BufTy).Contents (Elt F) → (⟨S2x8192x768, .f32⟩ : BufTy).Contents (Elt F) → (⟨S2x8192x768, .f32⟩ : BufTy).Contents (Elt F)),
    StableHlo.nullary main_cst_3 (constant S_ .f32 0x2B8CBCCC#32),
    StableHlo.unary main_cst_3 main_v18 (broadcastInDim S2x8192x1 ![] bcast_S_S2x8192x1 : (⟨S_, .f32⟩ : BufTy).Contents (Elt F) → (⟨S2x8192x1, .f32⟩ : BufTy).Contents (Elt F)),
    StableHlo.binary main_v15 main_v18 main_v19 (addf : (⟨S2x8192x1, .f32⟩ : BufTy).Contents (Elt F) → (⟨S2x8192x1, .f32⟩ : BufTy).Contents (Elt F) → (⟨S2x8192x1, .f32⟩ : BufTy).Contents (Elt F)),
    StableHlo.unary main_v19 main_v20 (Host.sqrt : (⟨S2x8192x1, .f32⟩ : BufTy).Contents (Elt F) → (⟨S2x8192x1, .f32⟩ : BufTy).Contents (Elt F)),
    StableHlo.unary main_v20 main_v21 (broadcastInDim S2x8192x768 ![0, 1, 2] bcast_S2x8192x1_S2x8192x768_0_1_2 : (⟨S2x8192x1, .f32⟩ : BufTy).Contents (Elt F) → (⟨S2x8192x768, .f32⟩ : BufTy).Contents (Elt F)),
    StableHlo.binary main_v17 main_v21 main_v22 (Host.divf : (⟨S2x8192x768, .f32⟩ : BufTy).Contents (Elt F) → (⟨S2x8192x768, .f32⟩ : BufTy).Contents (Elt F) → (⟨S2x8192x768, .f32⟩ : BufTy).Contents (Elt F)),
    StableHlo.unary main_arg2 main_v23 (broadcastInDim S1x1x768 ![2] bcast_S768_S1x1x768_2 : (⟨S768, .f32⟩ : BufTy).Contents (Elt F) → (⟨S1x1x768, .f32⟩ : BufTy).Contents (Elt F)),
    StableHlo.unary main_v23 main_v24 (broadcastInDim S2x8192x768 ![0, 1, 2] bcast_S1x1x768_S2x8192x768_0_1_2 : (⟨S1x1x768, .f32⟩ : BufTy).Contents (Elt F) → (⟨S2x8192x768, .f32⟩ : BufTy).Contents (Elt F)),
    StableHlo.binary main_v22 main_v24 main_v25 (mulf : (⟨S2x8192x768, .f32⟩ : BufTy).Contents (Elt F) → (⟨S2x8192x768, .f32⟩ : BufTy).Contents (Elt F) → (⟨S2x8192x768, .f32⟩ : BufTy).Contents (Elt F)),
    StableHlo.unary main_arg3 main_v26 (broadcastInDim S1x1x768 ![2] bcast_S768_S1x1x768_2 : (⟨S768, .f32⟩ : BufTy).Contents (Elt F) → (⟨S1x1x768, .f32⟩ : BufTy).Contents (Elt F)),
    StableHlo.unary main_v26 main_v27 (broadcastInDim S2x8192x768 ![0, 1, 2] bcast_S1x1x768_S2x8192x768_0_1_2 : (⟨S1x1x768, .f32⟩ : BufTy).Contents (Elt F) → (⟨S2x8192x768, .f32⟩ : BufTy).Contents (Elt F)),
    StableHlo.binary main_v25 main_v27 main_v28 (addf : (⟨S2x8192x768, .f32⟩ : BufTy).Contents (Elt F) → (⟨S2x8192x768, .f32⟩ : BufTy).Contents (Elt F) → (⟨S2x8192x768, .f32⟩ : BufTy).Contents (Elt F)) ]

set_option maxRecDepth 4096 in
/-- @main is that line: the two functions unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every weakly fair execution of @main terminates with every buffer at the fold of the operations over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- What the line leaves in the result buffer: the stages composed, of the contents the arguments started with. -/
theorem result_eq (V : Valuation τ sig (Elt F)) :
    after ops V (main_v28 : DevRef τ sig)
      = normalized (embedded (V (main_arg0 : DevRef τ sig)) (V (main_arg1 : DevRef τ sig)))
          (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- THE RUN. Every weakly fair execution of the reference terminates with its result at the normalised embedded rows of
    the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = normalized (embedded (m ((c.tc : Thread nD τ).loc main_arg0)) (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (result_eq _),
      (h c main_arg0).trans (arg0_eq _), (h c main_arg1).trans (arg1_eq _),
      (h c main_arg2).trans (arg2_eq _), (h c main_arg3).trans (arg3_eq _)⟩)
    (run_ops m ρ)

end Cert.ReferenceIdeal.RefValue

end
-- ==== Proof.RefTake.lean ====
/-
  The reference's embedding lookup, read at an index.

  jnp.take (pos_emb, [[0, 1, …, 8191]], axis 0) wraps a negative index by 8192, gathers row `clamp index` of the
  table for every index, and keeps the gathered row only where the index is within `[0, 8191]` (the NaN word
  elsewhere). The indices here are the position ids `0 … 8191` themselves: as 32-bit words they are non-negative and at
  most 8191, so nothing is wrapped, every index is in bounds, the clamp is the identity, and the looked-up array at
  `(0, r, k)` is the table at `(r, k)`.
-/
import proofs.«110133_g65180423684830_cont_9to1_m_508_16_alg».proof.Proof.RefRun
import Idealize.ShloMosaic.Lib.IdealHost
import Idealize.ShloMosaic.Lib.Pipeline.Value
import Idealize.ShloMosaic.Lib.ValueIdx
import Idealize.ShloMosaic.Lib.Affine
import Idealize.ShloMosaic.PureOps.Reduce

noncomputable section

namespace Cert.ReferenceIdeal.RefTake

open Cert.ReferenceIdeal Cert.ReferenceIdeal.Gen Cert.ReferenceIdeal.RefValue Idealize.ShloMosaic Idealize.ShloMosaic.TcCoe
open Idealize.ShloMosaic.ValueIdx

/-- A natural number below `2^31`, as a 32-bit word read signed, is itself. -/
theorem toInt_ofNat_lt (n : ℕ) (h : n < 2 ^ 31) : (BitVec.ofNat 32 n).toInt = (n : Int) := by
  rw [BitVec.toInt_ofNat']
  exact Int.bmod_eq_of_le (by omega) (by omega)

/-- A left fold by `and` from 1 over words that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..), show IntOp.andi (1#1 : BitVec 1) 1#1 = 1#1 from by decide]
    exact ih fun n hn => h n (List.mem_cons_of_mem _ hn)

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_ones x _ fun n _ => hx n

/-- Position id `r` is the word `r`. -/
theorem positionIds_apply (u : Fin 1) (r : Fin 8192) : positionIds (ix2 u r) = BitVec.ofNat 32 r.val := by
  unfold positionIds
  refine (broadcastInDim_apply _ _ _ (ix2 u r) (ix1 r) (fun a => ?_)).trans rfl
  match a with
  | ⟨0, _⟩ => show r.val = (if (8192 : Nat) = 1 then 0 else r.val); rw [if_neg (by decide)]

/-- The start index for position `r` is the word `r`: a position id is not negative, so it is not wrapped. -/
theorem startIdx_apply (u : Fin 1) (r : Fin 8192) (z : Fin 1) : startIdx positionIds (ix3 u r z) = BitVec.ofNat 32 r.val := by
  unfold startIdx
  have hu : u.val = 0 := by omega
  refine (broadcastInDim_apply _ _ _ (ix3 u r z) (ix2 u r) (fun a => ?_)).trans ?_
  · match a with
    | ⟨0, _⟩ => show u.val = (if (1 : Nat) = 1 then 0 else u.val); rw [if_pos rfl, hu]
    | ⟨1, _⟩ => show r.val = (if (8192 : Nat) = 1 then 0 else r.val); rw [if_neg (by decide)]
  · show Scalar.select (IntOp.cmpi .slt (positionIds (ix2 u r)) 0#32) (IntOp.addi (positionIds (ix2 u r)) 8192#32)
        (positionIds (ix2 u r)) = _
    rw [positionIds_apply]
    have hr : r.val < 8192 := r.isLt
    have hnot : ¬ IntOp.cmpi .slt (BitVec.ofNat 32 r.val) 0#32 = 1#1 := by
      rw [IntOp.cmpi_slt, toInt_ofNat_lt r.val (by omega), show (0#32 : BitVec 32).toInt = 0 from by decide]
      omega
    rw [eq_zero_of_ne_one hnot, select_zero]

/-- Every start index is within `[0, 8191]`. -/
theorem inBounds_apply (u : Fin 1) (r : Fin 8192) : inBounds (startIdx positionIds) (ix2 u r) = 1#1 := by
  unfold inBounds
  refine reduce_andi_ones _ _ _ _ _ rfl fun i => ?_
  obtain ⟨u', r', z', rfl⟩ : ∃ (u' : Fin 1) (r' : Fin 8192) (z' : Fin 1), i = ix3 u' r' z' := ⟨i 0, i 1, i 2, eq_ix3 i⟩
  show IntOp.andi (IntOp.cmpi .sge (startIdx positionIds (ix3 u' r' z')) 0#32)
      (IntOp.cmpi .sle (startIdx positionIds (ix3 u' r' z')) 8191#32) = 1#1
  rw [startIdx_apply]
  have hr : r'.val < 8192 := r'.isLt
  refine IntOp.andi_eq_one.mpr ⟨?_, ?_⟩
  · rw [IntOp.cmpi_sge, toInt_ofNat_lt r'.val (by omega), show (0#32 : BitVec 32).toInt = 0 from by decide]; omega
  · rw [IntOp.cmpi_sle, toInt_ofNat_lt r'.val (by omega), show (8191#32 : BitVec 32).toInt = 8191 from by decide]; omega

/-- THE GATHER AT `(u, r, k)`: the table at row `clamp (start index of r)`, lane `k` — row `n` when that clamp is `n`. -/
theorem gather_apply (pe : FVec Ideal S8192x768 .f32) (st : IVec S1x8192x1 32) (u : Fin 1) (r : Fin 8192) (k : Fin 768)
    (n : Fin 8192) (hn : n.val = min (st (ix3 u r (0 : Fin 1))).toInt.toNat 8191) :
    Host.gather gather_S8192x768_S1x8192x1_S1x8192x768_2_0_n_n_0_2_1768 pe st (ix3 u r k) = pe (ix2 n k) := by
  unfold Host.gather
  refine congrArg pe (funext fun a => Fin.ext ?_)
  match a with
  | ⟨0, _⟩ =>
    show gather_S8192x768_S1x8192x1_S1x8192x768_2_0_n_n_0_2_1768.start (ix3 u r k) st 0 + gather_S8192x768_S1x8192x1_S1x8192x768_2_0_n_n_0_2_1768.batchCoord (ix3 u r k) 0 + gather_S8192x768_S1x8192x1_S1x8192x768_2_0_n_n_0_2_1768.offCoord (ix3 u r k) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x768_S1x8192x1_S1x8192x768_2_0_n_n_0_2_1768.startIndexMap from List.mem_singleton.mpr rfl)]
    have hsi : gather_S8192x768_S1x8192x1_S1x8192x768_2_0_n_n_0_2_1768.siIdx (ix3 u r k) ⟨List.idxOf (0 : Fin 2) gather_S8192x768_S1x8192x1_S1x8192x768_2_0_n_n_0_2_1768.startIndexMap,
        List.idxOf_lt_length_iff.2 (List.mem_singleton.mpr rfl)⟩ = ix3 u r (0 : Fin 1) := by
      funext b; refine Fin.ext ?_
      match b with
      | ⟨0, _⟩ => rfl
      | ⟨1, _⟩ => rfl
      | ⟨2, _⟩ => rfl
    rw [hsi, hn]
    rfl
  | ⟨1, _⟩ =>
    show gather_S8192x768_S1x8192x1_S1x8192x768_2_0_n_n_0_2_1768.start (ix3 u r k) st 1 + gather_S8192x768_S1x8192x1_S1x8192x768_2_0_n_n_0_2_1768.batchCoord (ix3 u r k) 1 + gather_S8192x768_S1x8192x1_S1x8192x768_2_0_n_n_0_2_1768.offCoord (ix3 u r k) 1 = k.val
    rw [GatherDims.batchCoord_eq_zero _ _ _ List.not_mem_nil]
    have hs : gather_S8192x768_S1x8192x1_S1x8192x768_2_0_n_n_0_2_1768.start (ix3 u r k) st 1 = 0 := by
      unfold GatherDims.start
      rw [dif_neg (show (1 : Fin 2) ∉ gather_S8192x768_S1x8192x1_S1x8192x768_2_0_n_n_0_2_1768.startIndexMap from by decide)]
    have ho : gather_S8192x768_S1x8192x1_S1x8192x768_2_0_n_n_0_2_1768.offCoord (ix3 u r k) 1 = k.val := by
      unfold GatherDims.offCoord
      rw [dif_pos (show (1 : Fin 2) ∈ gather_S8192x768_S1x8192x1_S1x8192x768_2_0_n_n_0_2_1768.sKept from by decide)]
      rfl
    rw [hs, ho]
    omega

/-- THE LOOKED-UP ROWS: at `(u, r, k)` the table at `(r, k)`. -/
theorem takeRows_apply (pe : FVec Ideal S8192x768 .f32) (u : Fin 1) (r : Fin 8192) (k : Fin 768) :
    takeRows (F := Ideal) pe positionIds (ix3 u r k) = pe (ix2 r k) := by
  unfold takeRows
  have hu : u.val = 0 := by omega
  have hr : r.val < 8192 := r.isLt
  have hm : broadcastInDim S1x8192x768 ![0, 1] bcast_S1x8192_S1x8192x768_0_1 (inBounds (startIdx positionIds)) (ix3 u r k) = 1#1 := by
    refine (broadcastInDim_apply _ _ _ (ix3 u r k) (ix2 u r) (fun a => ?_)).trans (inBounds_apply u r)
    match a with
    | ⟨0, _⟩ => show u.val = (if (1 : Nat) = 1 then 0 else u.val); rw [if_pos rfl, hu]
    | ⟨1, _⟩ => show r.val = (if (8192 : Nat) = 1 then 0 else r.val); rw [if_neg (by decide)]
  rw [select_apply, hm, select_one]
  refine gather_apply pe _ u r k r ?_
  rw [startIdx_apply, toInt_ofNat_lt r.val (by omega)]
  omega

end Cert.ReferenceIdeal.RefTake

end
-- ==== Proof.RefRead.lean ====
/-
  The reference's result, read at an index.

  With the looked-up rows known (the table's own rows), each stage of the reference is read at an index: the embedded
  array at `(p, r, k)` is `x (p, r, k) + pe (r, k)`; a row's mean is the sum of its 768 entries (the host's sum starts
  from the zero word) divided by `768`; the centred entry is the entry minus that mean; and the result at `(p, r, d)` is
  the centred entry divided by the square root of (the mean of the squared centred entries plus `ε`), times `w d`
  plus `b d` — `LayerNormSpec.viaReference`.
-/
import proofs.«110133_g65180423684830_cont_9to1_m_508_16_alg».proof.Proof.RefTake
import proofs.«110133_g65180423684830_cont_9to1_m_508_16_alg».proof.Proof.Spec
import Idealize.ShloMosaic.PureOps.Ideal.Laws

noncomputable section

namespace Cert.ReferenceIdeal.RefRead

open Cert.ReferenceIdeal Cert.ReferenceIdeal.Gen Cert.ReferenceIdeal.RefValue Idealize.ShloMosaic Idealize.ShloMosaic.TcCoe
open Idealize.ShloMosaic.ValueIdx

/-- The embedded array at `(p, r, k)`. -/
theorem embedded_apply (x : FVec Ideal S2x8192x768 .f32) (pe : FVec Ideal S8192x768 .f32) (p : Fin 2) (r : Fin 8192) (k : Fin 768) :
    embedded x pe (ix3 p r k) = x (ix3 p r k) + pe (ix2 r k) := by
  unfold embedded
  rw [addf_apply]
  congr 1
  refine (broadcastInDim_apply _ _ _ (ix3 p r k) (ix3 (0 : Fin 1) r k) (fun a => ?_)).trans (RefTake.takeRows_apply pe 0 r k)
  match a with
  | ⟨0, _⟩ => show 0 = (if (1 : Nat) = 1 then 0 else p.val); rw [if_pos rfl]
  | ⟨1, _⟩ => show r.val = (if (8192 : Nat) = 1 then 0 else r.val); rw [if_neg (by decide)]
  | ⟨2, _⟩ => show k.val = (if (768 : Nat) = 1 then 0 else k.val); rw [if_neg (by decide)]

/-- A row's mean, kept as a column: the sum of the row's entries divided by `768`. -/
theorem rowMean_apply (e : FVec Ideal S2x8192x768 .f32) (p : Fin 2) (r : Fin 8192) (z : Fin 1) :
    rowMean e (ix3 p r z) = RowNorm.mean (Ideal.ofBits .f32 0x44400000#32) (fun k : Fin 768 => e (ix3 p r k)) := by
  unfold rowMean RowNorm.mean
  rw [hostDivf_apply, broadcastInDim_scalar_apply, constant_apply]
  congr 1
  have hz : z.val = 0 := by omega
  refine (broadcastInDim_apply _ _ _ (ix3 p r z) (ix2 p r) (fun a => ?_)).trans ?_
  · match a with
    | ⟨0, _⟩ => show p.val = (if (2 : Nat) = 1 then 0 else p.val); rw [if_neg (by decide)]
    | ⟨1, _⟩ => show r.val = (if (8192 : Nat) = 1 then 0 else r.val); rw [if_neg (by decide)]
  · rw [hostReduceAdd_apply,
      Ideal.hostReduceAdd_single reducesTo_S2x8192x768_S2x8192_d2 (by decide : S2x8192x768.Reduces [2] S2x8192)]
    show Ideal.ofBits .f32 0x00000000#32 + _ = _
    rw [Ideal.ofBits_zero_f32, zero_add]
    refine Finset.sum_congr rfl fun k _ => congrArg e (funext fun a => Fin.ext ?_)
    match a with
    | ⟨0, _⟩ => rfl
    | ⟨1, _⟩ => rfl
    | ⟨2, _⟩ => rfl

/-- The centred entry: the entry minus its row's mean. -/
theorem centered_apply (e : FVec Ideal S2x8192x768 .f32) (p : Fin 2) (r : Fin 8192) (k : Fin 768) :
    centered e (ix3 p r k) = RowNorm.dev (Ideal.ofBits .f32 0x44400000#32) (fun k : Fin 768 => e (ix3 p r k)) k := by
  unfold centered RowNorm.dev
  rw [subf_apply]
  congr 1
  refine (broadcastInDim_apply _ _ _ (ix3 p r k) (ix3 p r (0 : Fin 1)) (fun a => ?_)).trans (rowMean_apply e p r 0)
  match a with
  | ⟨0, _⟩ => show p.val = (if (2 : Nat) = 1 then 0 else p.val); rw [if_neg (by decide)]
  | ⟨1, _⟩ => show r.val = (if (8192 : Nat) = 1 then 0 else r.val); rw [if_neg (by decide)]
  | ⟨2, _⟩ => show 0 = (if (1 : Nat) = 1 then 0 else k.val); rw [if_pos rfl]

/-- A [768] row repeated over every `(p, r)`, read at `(p, r, d)`: its entry `d`. -/
theorem lanes_apply (w : FVec Ideal S768 .f32) (p : Fin 2) (r : Fin 8192) (d : Fin 768) :
    broadcastInDim S2x8192x768 ![0, 1, 2] bcast_S1x1x768_S2x8192x768_0_1_2
        (broadcastInDim S1x1x768 ![2] bcast_S768_S1x1x768_2 w) (ix3 p r d) = w (ix1 d) := by
  refine (broadcastInDim_apply _ _ _ (ix3 p r d) (ix3 (0 : Fin 1) (0 : Fin 1) d) (fun a => ?_)).trans ?_
  · match a with
    | ⟨0, _⟩ => show 0 = (if (1 : Nat) = 1 then 0 else p.val); rw [if_pos rfl]
    | ⟨1, _⟩ => show 0 = (if (1 : Nat) = 1 then 0 else r.val); rw [if_pos rfl]
    | ⟨2, _⟩ => show d.val = (if (768 : Nat) = 1 then 0 else d.val); rw [if_neg (by decide)]
  · refine broadcastInDim_apply _ _ _ (ix3 (0 : Fin 1) (0 : Fin 1) d) (ix1 d) (fun a => ?_)
    match a with
    | ⟨0, _⟩ => show d.val = (if (768 : Nat) = 1 then 0 else d.val); rw [if_neg (by decide)]

/-- THE RESULT AT `(p, r, d)`: row `(p, r)` of `e` normalised through the square root at lane `d`. -/
theorem normalized_apply (e : FVec Ideal S2x8192x768 .f32) (w b : FVec Ideal S768 .f32) (p : Fin 2) (r : Fin 8192) (d : Fin 768) :
    normalized e w b (ix3 p r d)
      = RowNorm.viaSqrt (Ideal.ofBits .f32 0x44400000#32) (Ideal.ofBits .f32 0x2B8CBCCC#32) (fun k : Fin 768 => e (ix3 p r k)) d
          (w (ix1 d)) (b (ix1 d)) := by
  unfold normalized RowNorm.viaSqrt RowNorm.var
  rw [addf_apply, mulf_apply, hostDivf_apply, lanes_apply, lanes_apply, centered_apply]
  congr 3
  refine (broadcastInDim_apply _ _ _ (ix3 p r d) (ix3 p r (0 : Fin 1)) (fun a => ?_)).trans ?_
  · match a with
    | ⟨0, _⟩ => show p.val = (if (2 : Nat) = 1 then 0 else p.val); rw [if_neg (by decide)]
    | ⟨1, _⟩ => show r.val = (if (8192 : Nat) = 1 then 0 else r.val); rw [if_neg (by decide)]
    | ⟨2, _⟩ => show 0 = (if (1 : Nat) = 1 then 0 else d.val); rw [if_pos rfl]
  · show Ideal.sqrt (rowMean (mulf (centered e) (centered e)) (ix3 p r (0 : Fin 1))
        + broadcastInDim S2x8192x1 ![] bcast_S_S2x8192x1 (constant (F := Ideal) S_ .f32 0x2B8CBCCC#32) (ix3 p r (0 : Fin 1))) = _
    rw [rowMean_apply, broadcastInDim_scalar_apply, constant_apply]
    unfold RowNorm.mean
    simp only [mulf_apply, centered_apply]

/-- THE REFERENCE'S RESULT is `viaReference` of its arguments. -/
theorem normalized_eq (x : FVec Ideal S2x8192x768 .f32) (pe : FVec Ideal S8192x768 .f32) (w b : FVec Ideal S768 .f32) :
    normalized (embedded x pe) w b = LayerNormSpec.viaReference x pe w b := by
  funext i
  obtain ⟨p, r, d, rfl⟩ : ∃ (p : Fin 2) (r : Fin 8192) (d : Fin 768), i = ix3 p r d := ⟨i 0, i 1, i 2, eq_ix3 i⟩
  rw [normalized_apply]
  unfold LayerNormSpec.viaReference LayerNormSpec.row
  exact RowNorm.viaSqrt_congr (fun k => embedded_apply x pe p r k) rfl rfl rfl

end Cert.ReferenceIdeal.RefRead

end
-- ==== Proof.Finite.lean ====
/-
  What the precondition says, entry by entry.

  The precondition is the conjunction of four `all (|a| < +∞)`, one per argument. Each conjunct is a reduction by `and`
  of the element-wise comparison, so when the whole is true every comparison is; and on the extended reals
  `max a (−a) < +∞` rules out both infinities, leaving a real number. Only the first two arguments are needed: the
  normalisation law uses that the embedded rows are real, and holds for any scale and shift.
-/
import proofs.«110133_g65180423684830_cont_9to1_m_508_16_alg».proof.Proof.Gen.Pre_finite_inputs
import Idealize.ShloMosaic.PureOps.Ideal.Laws
import Idealize.ShloMosaic.Lib.ReduceAll
import Idealize.ShloMosaic.Lib.ValueIdx
import Idealize.ShloMosaic.Lib.Affine

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- The f32 word `0x7F800000` denotes `+∞`. -/
theorem ofBits_inf : Ideal.ofBits .f32 0x7F800000#32 = ⊤ := by simp [Ideal.ofBits, Ideal.ieee]

/-- An extended real whose absolute value is below `+∞` is a real number. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | top => simp [Ideal.cmp] at h
  | coe r => exact ⟨r, rfl⟩

/-- Under the precondition every entry of the first two arguments is a real number. -/
theorem reals_of_pre (x : FVec Ideal S2x8192x768 .f32) (pe : FVec Ideal S8192x768 .f32) (w b : FVec Ideal S768 .f32)
    (h : fn (F := Ideal) x pe w b = fun _ => 1#1) :
    (∀ i, ∃ r : ℝ, x i = (r : EReal)) ∧ (∀ i, ∃ r : ℝ, pe i = (r : EReal)) := by
  have h0 := congrFun h ix0
  dsimp only [fn, fn_part1] at h0
  obtain ⟨h123, _⟩ := IntOp.andi_eq_one.mp h0
  obtain ⟨h12, _⟩ := IntOp.andi_eq_one.mp h123
  obtain ⟨h1, h2⟩ := IntOp.andi_eq_one.mp h12
  exact ⟨fun i => real_of_abs_lt _ (Host.reduce_andi_all _ _ _ _ _ h1 i),
    fun i => real_of_abs_lt _ (Host.reduce_andi_all _ _ _ _ _ h2 i)⟩

end Cert.Pre_finite_inputs.Finite

end
-- ==== Proof.lean ====
/-
  A fused position-embedding add and layer normalisation over [2, 8192, 768], against its jnp reference, on the
  extended reals.

  Both programs compute, for each of the 2 × 8192 rows, `e = x + pos_emb[row]`, the row's mean and variance over the
  768 lanes (sums divided by `768`), and the centred row scaled to unit variance, times `ln_w` plus `ln_b`. The
  kernel walks the rows in eight blocks of 1024 and scales by `rsqrt (var + ε)`; the reference looks the position rows
  up through jnp.take over `arange(8192)` (an identity lookup: every index is in bounds) and divides by
  `sqrt (var + ε)`. The literals are the same words on both sides. The two results are `LayerNormSpec.viaKernel` and
  `LayerNormSpec.viaReference` of the arguments; they agree wherever `x` and `pos_emb` hold real numbers, which the
  precondition gives: then each centred entry is real and `var + ε` is a positive real, where
  `c · (√y)⁻¹ = c / √y`. The scale and shift may be any extended reals. The idealisation rewrote nothing, so the
  kernel's idealised program is its own text read over the extended reals.
-/
import proofs.«110133_g65180423684830_cont_9to1_m_508_16_alg».proof.Defs
import proofs.«110133_g65180423684830_cont_9to1_m_508_16_alg».proof.Proof.Gen.Kernel
import proofs.«110133_g65180423684830_cont_9to1_m_508_16_alg».proof.Proof.Gen.Kernel.Skeleton
import proofs.«110133_g65180423684830_cont_9to1_m_508_16_alg».proof.Proof.Gen.Kernel.Launch
import proofs.«110133_g65180423684830_cont_9to1_m_508_16_alg».proof.Proof.Gen.Kernel.Points
import proofs.«110133_g65180423684830_cont_9to1_m_508_16_alg».proof.Proof.Gen.Kernel.Frame
import proofs.«110133_g65180423684830_cont_9to1_m_508_16_alg».proof.Proof.Gen.KernelIdeal
import proofs.«110133_g65180423684830_cont_9to1_m_508_16_alg».proof.Proof.Gen.KernelIdeal.Skeleton
import proofs.«110133_g65180423684830_cont_9to1_m_508_16_alg».proof.Proof.Gen.KernelIdeal.Launch
import proofs.«110133_g65180423684830_cont_9to1_m_508_16_alg».proof.Proof.Gen.KernelIdeal.Points
import proofs.«110133_g65180423684830_cont_9to1_m_508_16_alg».proof.Proof.Gen.KernelIdeal.Frame
import proofs.«110133_g65180423684830_cont_9to1_m_508_16_alg».proof.Proof.Gen.KernelIdeal.Value
import proofs.«110133_g65180423684830_cont_9to1_m_508_16_alg».proof.Proof.Gen.ReferenceIdeal
import proofs.«110133_g65180423684830_cont_9to1_m_508_16_alg».proof.Proof.Gen.Pre_finite_inputs
import proofs.«110133_g65180423684830_cont_9to1_m_508_16_alg».proof.Proof.KernelArray
import proofs.«110133_g65180423684830_cont_9to1_m_508_16_alg».proof.Proof.RefRead
import proofs.«110133_g65180423684830_cont_9to1_m_508_16_alg».proof.Proof.Finite
import Idealize.ShloMosaic.Adequacy
import Idealize.ShloMosaic.Init

noncomputable section

namespace Cert.Proof

open Idealize.ShloMosaic Idealize.SL.Sem

/-- The kernel's program, on words, runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Nothing was rewritten on the way to the extended reals. -/
theorem preserves : Cert.preserves_Kernel_KernelIdeal := trivial

/-- From memories that agree on the arguments, with every float input finite: the kernel's output array is
    `viaKernel` of the arguments, the reference's result `viaReference` of the same arguments, and these are one array
    because `x` and `pos_emb` hold real numbers. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2, Cert.ReferenceIdeal.RefRead.normalized_eq]
  obtain ⟨hx, hpe⟩ := Cert.Pre_finite_inputs.Finite.reals_of_pre _ _ _ _ (hpre c)
  exact (LayerNormSpec.viaKernel_eq_viaReference _ _ _ _ hx hpe).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
